-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048 : Shape := ⟨2, ![64, 2048]⟩
abbrev S64x2048x1 : Shape := ⟨3, ![64, 2048, 1]⟩
abbrev S64x1x2048 : Shape := ⟨3, ![64, 1, 2048]⟩
abbrev S64x2048x2048 : Shape := ⟨3, ![64, 2048, 2048]⟩
abbrev S_ : Shape := ⟨0, ![]⟩
abbrev S2048x2048 : Shape := ⟨2, ![2048, 2048]⟩

class Facts : Prop where
  bcast_S64x2048_S64x2048x1_0_1 : S64x2048.BroadcastsInDim S64x2048x1 (![0, 1] : Fin 2 → Fin S64x2048x1.rank)
  bcast_S64x2048_S64x1x2048_0_2 : S64x2048.BroadcastsInDim S64x1x2048 (![0, 2] : Fin 2 → Fin S64x1x2048.rank)
  bcast_S64x2048x1_S64x2048x2048_0_1_2 : S64x2048x1.BroadcastsInDim S64x2048x2048 (![0, 1, 2] : Fin 3 → Fin S64x2048x2048.rank)
  bcast_S64x1x2048_S64x2048x2048_0_1_2 : S64x1x2048.BroadcastsInDim S64x2048x2048 (![0, 1, 2] : Fin 3 → Fin S64x2048x2048.rank)
  reducesTo_S64x2048x2048_S2048x2048_d0 : S64x2048x2048.ReducesTo [0] S2048x2048
  h_S_ : 0 < S_.numel
  bcast_S_S64x2048 : S_.BroadcastsInDim S64x2048 (![] : Fin 0 → Fin S64x2048.rank)
  reducesTo_S64x2048_S_d0_1 : S64x2048.ReducesTo [0, 1] S_
  reducesTo_S2048x2048_S_d0_1 : S2048x2048.ReducesTo [0, 1] S_

variable [Facts]

def fn {F : FTy → Type} [FloatOps F] (main_arg0 : FVec F S64x2048 .f32) : IVec S_ 1 :=
  let main_v0 : FVec F S64x2048x1 .f32 := broadcastInDim S64x2048x1 ![0, 1] bcast_S64x2048_S64x2048x1_0_1 main_arg0
  let main_v1 : FVec F S64x1x2048 .f32 := broadcastInDim S64x1x2048 ![0, 2] bcast_S64x2048_S64x1x2048_0_2 main_arg0
  let main_v2 : FVec F S64x2048x2048 .f32 := broadcastInDim S64x2048x2048 ![0, 1, 2] bcast_S64x2048x1_S64x2048x2048_0_1_2 main_v0
  let main_v3 : FVec F S64x2048x2048 .f32 := broadcastInDim S64x2048x2048 ![0, 1, 2] bcast_S64x1x2048_S64x2048x2048_0_1_2 main_v1
  let main_v4 : FVec F S64x2048x2048 .f32 := subf main_v2 main_v3
  let main_v5 : FVec F S64x2048x2048 .f32 := Host.absf main_v4
  let main_cst : FVec F S_ .f32 := constant S_ .f32 0x00000000#32
  let main_v6 : FVec F S2048x2048 .f32 := (fun x v => Host.reduceAdd x v reducesTo_S64x2048x2048_S2048x2048_d0 h_S_) main_v5 main_cst
  let main_v7 : FVec F S64x2048 .f32 := Host.absf main_arg0
  let main_cst_0 : FVec F S_ .f32 := constant S_ .f32 0x7F800000#32
  let main_v8 : FVec F S64x2048 .f32 := broadcastInDim S64x2048 ![] bcast_S_S64x2048 main_cst_0
  let main_v9 : IVec S64x2048 1 := cmpf .olt main_v7 main_v8
  let main_c : IVec S_ 1 := constantI S_ 1 1#1
  let main_v10 : IVec S_ 1 := (fun x v => Host.reduce IntOp.andi x v reducesTo_S64x2048_S_d0_1 h_S_) main_v9 main_c
  let main_cst_1 : FVec F S_ .f32 := constant S_ .f32 0xFF800000#32
  let main_v11 : FVec F S_ .f32 := (fun x v => Host.reduce FloatOps.maximumf x v reducesTo_S2048x2048_S_d0_1 h_S_) main_v6 main_cst_1
  let main_cst_2 : FVec F S_ .f32 := constant S_ .f32 0x7F800000#32
  let main_v12 : FVec F S_ .f32 := (fun x v => Host.reduce FloatOps.minimumf x v reducesTo_S2048x2048_S_d0_1 h_S_) main_v6 main_cst_2
  let main_v13 : IVec S_ 1 := cmpf .ogt main_v11 main_v12
  let main_v14 : IVec S_ 1 := andi main_v10 main_v13
  main_v14
-- ==== Kernel.lean ====
abbrev S64x2048 : Shape := ⟨2, ![64, 2048]⟩
abbrev S2048x64 : Shape := ⟨2, ![2048, 64]⟩
abbrev S2048x1x64 : Shape := ⟨3, ![2048, 1, 64]⟩
abbrev S1x2048x64 : Shape := ⟨3, ![1, 2048, 64]⟩
abbrev S2048x2048 : Shape := ⟨2, ![2048, 2048]⟩
abbrev S256x1x64 : Shape := ⟨3, ![256, 1, 64]⟩
abbrev S1x128x64 : Shape := ⟨3, ![1, 128, 64]⟩
abbrev S256x128 : Shape := ⟨2, ![256, 128]⟩
abbrev S256x128x64 : Shape := ⟨3, ![256, 128, 64]⟩
abbrev S_ : Shape := ⟨0, ![]⟩
abbrev S1x1 : Shape := ⟨2, ![1, 1]⟩
abbrev S256x2048 : Shape := ⟨2, ![256, 2048]⟩

abbrev nBuf : Space → Nat
  | .hbm => 12
  | .vmem => 12
  | .smem => 0
  | _ => 0

abbrev bufTy : (tb : Table) → Fin (tcTables nBuf tb) → BufTy
  | .hbm, ⟨0, _⟩ => ⟨S64x2048, .f32⟩
  | .hbm, ⟨1, _⟩ => ⟨S2048x64, .f32⟩
  | .hbm, ⟨2, _⟩ => ⟨S2048x1x64, .f32⟩
  | .hbm, ⟨3, _⟩ => ⟨S1x2048x64, .f32⟩
  | .hbm, ⟨4, _⟩ => ⟨S2048x2048, .f32⟩
  | .hbm, ⟨5, _⟩ => ⟨S_, .f32⟩
  | .hbm, ⟨6, _⟩ => ⟨S_, .f32⟩
  | .hbm, ⟨7, _⟩ => ⟨S1x1, .f32⟩
  | .hbm, ⟨8, _⟩ => ⟨S_, .f32⟩
  | .hbm, ⟨9, _⟩ => ⟨S_, .f32⟩
  | .hbm, ⟨10, _⟩ => ⟨S1x1, .f32⟩
  | .hbm, ⟨11, _⟩ => ⟨S2048x2048, .f32⟩
  | .local _ .vmem, ⟨0, _⟩ => ⟨S256x1x64, .f32⟩
  | .local _ .vmem, ⟨1, _⟩ => ⟨S256x1x64, .f32⟩
  | .local _ .vmem, ⟨2, _⟩ => ⟨S1x128x64, .f32⟩
  | .local _ .vmem, ⟨3, _⟩ => ⟨S1x128x64, .f32⟩
  | .local _ .vmem, ⟨4, _⟩ => ⟨S256x128, .f32⟩
  | .local _ .vmem, ⟨5, _⟩ => ⟨S256x128, .f32⟩
  | .local _ .vmem, ⟨6, _⟩ => ⟨S256x2048, .f32⟩
  | .local _ .vmem, ⟨7, _⟩ => ⟨S256x2048, .f32⟩
  | .local _ .vmem, ⟨8, _⟩ => ⟨S1x1, .f32⟩
  | .local _ .vmem, ⟨9, _⟩ => ⟨S1x1, .f32⟩
  | .local _ .vmem, ⟨10, _⟩ => ⟨S256x2048, .f32⟩
  | .local _ .vmem, ⟨11, _⟩ => ⟨S256x2048, .f32⟩
  | _, _ => ⟨S64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  transposes_S64x2048_S2048x64_1_0 : S64x2048.Transposes [1, 0] S2048x64
  bcast_S2048x64_S2048x1x64_0_2 : S2048x64.BroadcastsInDim S2048x1x64 (![0, 2] : Fin 2 → Fin S2048x1x64.rank)
  bcast_S2048x64_S1x2048x64_1_2 : S2048x64.BroadcastsInDim S1x2048x64 (![1, 2] : Fin 2 → Fin S1x2048x64.rank)
  inb_S256x1x64_S256x1x64_0_0_0 : ∀ a, (![0, 0, 0] : Fin 3 → Nat) a + S256x1x64.size a ≤ S256x1x64.size a
  h_S256x1x64 : 0 < S256x1x64.numel
  shapeCasts_S256x1x64_S256x1x64 : S256x1x64.ShapeCasts S256x1x64
  inb_S1x128x64_S1x128x64_0_0_0 : ∀ a, (![0, 0, 0] : Fin 3 → Nat) a + S1x128x64.size a ≤ S1x128x64.size a
  h_S1x128x64 : 0 < S1x128x64.numel
  shapeCasts_S1x128x64_S1x128x64 : S1x128x64.ShapeCasts S1x128x64
  broadcasts_S256x1x64_S256x128x64 : S256x1x64.Broadcasts S256x128x64
  broadcasts_S1x128x64_S256x128x64 : S1x128x64.Broadcasts S256x128x64
  reduces_S256x128x64_S256x128 : S256x128x64.Reduces [2] S256x128
  inb_S256x128_S256x128_0_0 : ∀ a, (![0, 0] : Fin 2 → Nat) a + S256x128.size a ≤ S256x128.size a
  h_S256x128 : 0 < S256x128.numel
  reducesTo_S2048x2048_S_d0_1 : S2048x2048.ReducesTo [0, 1] S_
  h_S_ : 0 < S_.numel
  shapeCasts_S_S1x1 : S_.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  broadcasts_S1x1_S256x2048 : S1x1.Broadcasts S256x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1x64.size a ≤ S2048x1x64.size a
  hwx0_0 : ∀ i : grid0.Coords, EltTy.bits .f32 = 32 ∨ (Rect.block (s := S2048x1x64) S256x1x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x64.size a ≤ S1x2048x64.size a
  hwx0_1 : ∀ i : grid0.Coords, EltTy.bits .f32 = 32 ∨ (Rect.block (s := S1x2048x64) S1x128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S2048x2048.size a
  hwx0_2 : ∀ i : grid0.Coords, EltTy.bits .f32 = 32 ∨ (Rect.block (s := S2048x2048) S256x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x2048.size a ≤ S2048x2048.size a
  hwx1_0 : ∀ i : grid1.Coords, EltTy.bits .f32 = 32 ∨ (Rect.block (s := S2048x2048) S256x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1.size a ≤ S1x1.size a
  hwx1_1 : ∀ i : grid1.Coords, EltTy.bits .f32 = 32 ∨ (Rect.block (s := S1x1) S1x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x2048.size a ≤ S2048x2048.size a
  hwx1_3 : ∀ i : grid1.Coords, EltTy.bits .f32 = 32 ∨ (Rect.block (s := S2048x2048) S256x2048.size (cc1_transform_3 i) (hinb1_3 i)).WholeWords (EltTy.packing .f32)

variable [Facts₀]

abbrev win0_0 : Pipeline.Window sig grid0 :=
  Pipeline.Window.ofSpec (Memref.whole main_v1) S256x1x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x128x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v3) S256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S256x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S64x2048 : Shape := ⟨2, ![64, 2048]⟩
abbrev S64x2048x1 : Shape := ⟨3, ![64, 2048, 1]⟩
abbrev S64x1x2048 : Shape := ⟨3, ![64, 1, 2048]⟩
abbrev S64x2048x2048 : Shape := ⟨3, ![64, 2048, 2048]⟩
abbrev S_ : Shape := ⟨0, ![]⟩
abbrev S2048x2048 : Shape := ⟨2, ![2048, 2048]⟩

abbrev nBuf : Space → Nat
  | .hbm => 21
  | .vmem => 0
  | .smem => 0
  | _ => 0

abbrev bufTy : (tb : Table) → Fin (tcTables nBuf tb) → BufTy
  | .hbm, ⟨0, _⟩ => ⟨S64x2048, .f32⟩
  | .hbm, ⟨1, _⟩ => ⟨S64x2048x1, .f32⟩
  | .hbm, ⟨2, _⟩ => ⟨S64x1x2048, .f32⟩
  | .hbm, ⟨3, _⟩ => ⟨S64x2048x2048, .f32⟩
  | .hbm, ⟨4, _⟩ => ⟨S64x2048x2048, .f32⟩
  | .hbm, ⟨5, _⟩ => ⟨S64x2048x2048, .f32⟩
  | .hbm, ⟨6, _⟩ => ⟨S64x2048x2048, .f32⟩
  | .hbm, ⟨7, _⟩ => ⟨S_, .f32⟩
  | .hbm, ⟨8, _⟩ => ⟨S2048x2048, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S_, .f32⟩
  | .hbm, ⟨19, _⟩ => ⟨S2048x2048, .f32⟩
  | .hbm, ⟨20, _⟩ => ⟨S2048x2048, .f32⟩
  | _, _ => ⟨S64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_cst_0 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_2 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]

class Facts₀ : Prop where
  bcast_S64x2048_S64x2048x1_0_1 : S64x2048.BroadcastsInDim S64x2048x1 (![0, 1] : Fin 2 → Fin S64x2048x1.rank)
  bcast_S64x2048_S64x1x2048_0_2 : S64x2048.BroadcastsInDim S64x1x2048 (![0, 2] : Fin 2 → Fin S64x1x2048.rank)
  bcast_S64x2048x1_S64x2048x2048_0_1_2 : S64x2048x1.BroadcastsInDim S64x2048x2048 (![0, 1, 2] : Fin 3 → Fin S64x2048x2048.rank)
  bcast_S64x1x2048_S64x2048x2048_0_1_2 : S64x1x2048.BroadcastsInDim S64x2048x2048 (![0, 1, 2] : Fin 3 → Fin S64x2048x2048.rank)
  reducesTo_S64x2048x2048_S2048x2048_d0 : S64x2048x2048.ReducesTo [0] S2048x2048
  h_S_ : 0 < S_.numel
  reducesTo_S2048x2048_S_d0_1 : S2048x2048.ReducesTo [0, 1] S_
  bcast_S_S2048x2048 : S_.BroadcastsInDim S2048x2048 (![] : Fin 0 → Fin S2048x2048.rank)

variable [Facts₀]

class Facts : Prop extends Facts₀ where

variable [Facts]
-- ==== Proof.KernelRun.lean ====
/-
  The whole program's run, with every buffer's final contents named.

  The program is four segments in a row: the host lines that transpose `x` and add the unit axes, the distance kernel
  over its 8 by 16 grid, the host lines that take the least and greatest distance, and the rescaling kernel over its 8
  grid points. The contents of the TensorCore's buffers at the four boundaries are a fold from the launch memory: after
  a stretch of host lines, what the lines compute; after a kernel, its arrays at what its write-backs leave and every
  other buffer as it was. `run_ends` says: from any memory with zero semaphore counters every weakly fair execution
  terminates, nothing faulting, and EVERY buffer outside the kernels' scoped staging ends holding the fold's last
  contents. Any property of the final memory that follows from that reading holds of every execution; the result
  buffer's contents and the argument's being unchanged are two such properties (`run_result`).
-/
import proofs.«155558_j73624329388542_2_alg».proof.Proof.Gen.KernelIdeal.Frame

set_option maxRecDepth 16384

noncomputable section

namespace Cert.KernelIdeal.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault, and any property `Q` of the final memory that follows from
    "every unscoped buffer of every core holds the last boundary's contents" holds at its end. -/
theorem run_ends {Q : PUnit × MemSt nD τ sig (Elt F) → Prop}
    (hQ : ∀ s : MemSt nD τ sig (Elt F),
      (∀ c : Dev nD, ∀ b ∈ Pipeline.ucRefs τ sig, s.mem (((c : Thread nD τ)).1, b) = W4 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch element is the pipelines' own; no core is dealt a ghost resource
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      -- per core: the unscoped buffers at the launch memory are the first thread state's buffers; the generator
      -- register and the (empty) debt ride beside them
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      -- the last thread state holds every unscoped buffer at `W4`: read them all against the final state
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := hQ)

/-- The run with the result named: the result buffer ends at the last boundary's contents, the argument as launched. -/
theorem run_result : θ_run defs (onTc (τ := τ) (main (F := F))) ⟨m, fun _ => 0, ρ⟩ (fun r => ∀ c : Dev nD,
      r.2.mem ((c.tc : Thread nD τ).loc main_v8) = W4 m ρ c (Proc.devRef .tc main_v8)
      ∧ r.2.mem ((c.tc : Thread nD τ).loc main_arg0) = m ((c.tc : Thread nD τ).loc main_arg0)) :=
  run_ends m ρ (fun s h c =>
    ⟨h c _ (mem_uc main_v8 (by decide)), (h c _ (mem_uc main_arg0 (by decide))).trans (W4_main_arg0 m ρ c)⟩)

end Cert.KernelIdeal.KernelRun

end
-- ==== Proof.DistBody.lean ====
/-
  What the distance kernel's body stores, entry by entry.

  The body holds a block `a` of 256 columns of `x` (laid out [256, 1, 64]: column, a unit axis, row) and a block `b` of
  128 columns (laid out [1, 128, 64]), broadcasts both to [256, 128, 64], takes the absolute difference and sums over
  the last axis. So entry `(p, q)` of what it stores is the sum over the 64 rows `k` of `|a p 0 k - b 0 q k|`: the lane
  sum from a zero accumulator is the plain sum, a broadcast along a unit axis reads the operand at `0` there, and the
  two self shape casts are the identity.
-/
import proofs.«155558_j73624329388542_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.DistBody

open Cert.KernelIdeal Cert.KernelIdeal.Facts₀ Cert.KernelIdeal.Facts
open Idealize.ShloMosaic Idealize.ShloMosaic.ValueIdx

/-- The absolute difference of the two broadcast blocks at `(p, q, k)` is `|a p 0 k - b 0 q k|`. -/
theorem absdiff_apply (a : FVec Ideal S256x1x64 .f32) (b : FVec Ideal S1x128x64 .f32) (p : Fin 256) (q : Fin 128) (k : Fin 64) :
    absf (subf (broadcastTo S256x128x64 a broadcasts_S256x1x64_S256x128x64)
        (broadcastTo S256x128x64 b broadcasts_S1x128x64_S256x128x64)) (ix3 p q k)
      = max (a (ix3 p 0 k) - b (ix3 0 q k)) (-(a (ix3 p 0 k) - b (ix3 0 q k))) := by
  have ha : broadcastTo S256x128x64 a broadcasts_S256x1x64_S256x128x64 (ix3 p q k) = a (ix3 p 0 k) :=
    broadcastTo_apply a broadcasts_S256x1x64_S256x128x64 (ix3 p q k) (ix3 p 0 k) (fun d => match d with
      | ⟨0, _⟩ => by show p.val = if (256 : Nat) = 1 then 0 else p.val; rw [if_neg (by decide)]
      | ⟨1, _⟩ => by show 0 = if (1 : Nat) = 1 then 0 else q.val; rw [if_pos rfl]
      | ⟨2, _⟩ => by show k.val = if (64 : Nat) = 1 then 0 else k.val; rw [if_neg (by decide)])
  have hb : broadcastTo S256x128x64 b broadcasts_S1x128x64_S256x128x64 (ix3 p q k) = b (ix3 0 q k) :=
    broadcastTo_apply b broadcasts_S1x128x64_S256x128x64 (ix3 p q k) (ix3 0 q k) (fun d => match d with
      | ⟨0, _⟩ => by show 0 = if (1 : Nat) = 1 then 0 else p.val; rw [if_pos rfl]
      | ⟨1, _⟩ => by show q.val = if (128 : Nat) = 1 then 0 else q.val; rw [if_neg (by decide)]
      | ⟨2, _⟩ => by show k.val = if (64 : Nat) = 1 then 0 else k.val; rw [if_neg (by decide)])
  show max (broadcastTo S256x128x64 a broadcasts_S256x1x64_S256x128x64 (ix3 p q k)
        - broadcastTo S256x128x64 b broadcasts_S1x128x64_S256x128x64 (ix3 p q k))
      (-(broadcastTo S256x128x64 a broadcasts_S256x1x64_S256x128x64 (ix3 p q k)
        - broadcastTo S256x128x64 b broadcasts_S1x128x64_S256x128x64 (ix3 p q k))) = _
  rw [ha, hb]

/-- The lane sum over the last axis, at entry `(p, q)`, is the sum over `k` of the source at `(p, q, k)`. -/
theorem lanesum_apply (src : FVec Ideal S256x128x64 .f32) (p : Fin 256) (q : Fin 128) :
    multiReduction .add [2] S256x128 src 0x00000000#32 reduces_S256x128x64_S256x128 (.inl rfl) rfl (ix2 p q)
      = ∑ k : Fin 64, src (ix3 p q k) := by
  refine (Ideal.multiReduction_add_single src 0x00000000#32 reduces_S256x128x64_S256x128 (.inl rfl) rfl (ix2 p q)).trans ?_
  refine Finset.sum_congr rfl fun k _ => ?_
  exact congrArg src (funext fun d => Fin.ext (by match d with | ⟨0, _⟩ => rfl | ⟨1, _⟩ => rfl | ⟨2, _⟩ => rfl))

/-- What the body stores at entry `(p, q)`: the L1 distance between row-vectors `a p 0 ·` and `b 0 q ·`. -/
theorem payload_apply (a : Vec Ideal S256x1x64 .f32) (b : Vec Ideal S1x128x64 .f32) (p : Fin 256) (q : Fin 128) :
    Gen.k0_pay1 (F := Ideal) a b (ix2 p q)
      = ∑ k : Fin 64, max (a (ix3 p 0 k) - b (ix3 0 q k)) (-(a (ix3 p 0 k) - b (ix3 0 q k))) := by
  unfold Gen.k0_pay1
  dsimp only
  refine (lanesum_apply _ p q).trans ?_
  refine Finset.sum_congr rfl fun k _ => ?_
  refine (absdiff_apply _ _ p q k).trans ?_
  rw [shapeCast_self, shapeCast_self]

end Cert.KernelIdeal.DistBody

end
-- ==== Proof.ColumnDistance.lean ====
/-
  The mathematics both programs share, with no program in sight.

  For an array `x` of 64 rows and 2048 columns, `colDist x p q` is the L1 distance between columns `p` and `q`:
  the sum over the 64 rows `k` of `|x k p - x k q|`, the absolute value of an extended real `a` being `max a (-a)`.

  Both programs then rescale the distances by their extremes: with `mn` and `mx` the least and the greatest distance,
  one side computes `(d - mn) * (1 / (mx - mn))` and the other `(d - mn) / (mx - mn)`. On the extended reals the
  quotient `a / b` by a nonzero `b` IS the product `a * b⁻¹`, and `1 / b` is `b⁻¹`, so the two agree for EVERY `a`
  as soon as `b ≠ 0` (`mul_one_div`) — no finiteness is used. At `b = 0` they differ (`0 * (1 / 0) = 0 * ⊤ = 0` against
  the quotient `0 / 0`), which is why the denominator's being nonzero is asked of the input. A difference of two
  extended reals `a - b` with `b < a` is never `0` (`sub_ne_zero_of_lt`): at an infinity it is `⊤`, and on the reals it
  is positive.
-/
import Idealize.ShloMosaic.PureOps.Ideal
import Idealize.ShloMosaic.Lib.ValueIdx

noncomputable section

namespace Cert.SelfSim

open Idealize.ShloMosaic Idealize.ShloMosaic.ValueIdx

/-- The L1 distance between columns `p` and `q` of `x`: the sum over the rows of the absolute differences. -/
def colDist (x : (⟨2, ![64, 2048]⟩ : Shape).Idx → EReal) (p q : Fin 2048) : EReal :=
  ∑ k : Fin 64, max (x (ix2 k p) - x (ix2 k q)) (-(x (ix2 k p) - x (ix2 k q)))

/-- All the distances as one array: entry `(p, q)` is the distance between columns `p` and `q`. -/
def colDistArr (x : (⟨2, ![64, 2048]⟩ : Shape).Idx → EReal) : (⟨2, ![2048, 2048]⟩ : Shape).Idx → EReal :=
  fun i => colDist x ⟨(i 0).val, (i 0).isLt⟩ ⟨(i 1).val, (i 1).isLt⟩

/-- Multiplying by the reciprocal of a nonzero extended real is dividing by it, whatever the numerator. -/
theorem mul_one_div (a b : EReal) (hb : b ≠ 0) : a * Ideal.div 1 b = Ideal.div a b := by
  rw [Ideal.div, Ideal.div, if_neg hb, if_neg hb, one_mul]

/-- A difference `a - b` with `b < a` is not zero: `⊤` when either is infinite, positive on the reals. -/
theorem sub_ne_zero_of_lt {a b : EReal} (h : b < a) : a - b ≠ 0 := by
  induction a using EReal.rec with
  | bot => exact absurd h not_lt_bot
  | top =>
    induction b using EReal.rec with
    | bot => simp
    | top => exact absurd h (lt_irrefl _)
    | coe y => simp
  | coe x =>
    induction b using EReal.rec with
    | bot => simp
    | top => exact absurd h not_top_lt
    | coe y =>
      have hxy : y < x := by exact_mod_cast h
      rw [← EReal.coe_sub]
      exact_mod_cast (sub_pos.mpr hxy).ne'

/-- The f32 word of `1.0` denotes the extended real `1`. -/
theorem ofBits_one : Ideal.ofBits .f32 0x3F800000#32 = 1 := by
  simp [Ideal.ofBits, Ideal.ieee, -EReal.coe_mul]; norm_num

end Cert.SelfSim

end
-- ==== Proof.DistArray.lean ====
/-
  The distance kernel's output array after its run is the array of column distances of the argument.

  The host lines before the kernel transpose `x` and add a unit axis in two ways: the first operand is `x` laid out
  [column, 1, row], the second [1, column, row]; entry `(r, 0, k)` of the first and `(0, r, k)` of the second are both
  `x k r`. The grid is 8 by 16: at point `(i, j)` the kernel reads columns `256 i … 256 i + 255` through the first
  operand and columns `128 j … 128 j + 127` through the second, and writes the block of the output with those rows and
  columns. Entry `(p, q)` of what it writes is the sum over the rows `k` of `|x k (256 i + p) - x k (128 j + q)|`, that
  is, the entry of `colDistArr x` under it. The 128 blocks tile the 2048 by 2048 output (entry `(r, s)` lies in the
  block of point `(r / 256, s / 128)`), so the output ends as `colDistArr x` everywhere.
-/
import proofs.«155558_j73624329388542_2_alg».proof.Proof.Gen.KernelIdeal.Frame
import proofs.«155558_j73624329388542_2_alg».proof.Proof.DistBody
import proofs.«155558_j73624329388542_2_alg».proof.Proof.ColumnDistance
import Idealize.ShloMosaic.Lib.Pipeline.Value
import Idealize.ShloMosaic.Lib.StableHlo.Run
import Idealize.ShloMosaic.Lib.ValueIdx

set_option maxRecDepth 16384

noncomputable section

namespace Cert.KernelIdeal.DistArray

open Cert.KernelIdeal Cert.KernelIdeal.Gen Cert.SelfSim
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-! ## The two operands, as the host lines leave them -/

/-- The first operand is the transpose of `x` with a unit axis in the middle. -/
theorem left_eq (c : Dev nD) :
    (V1 m ρ c main_v1 : S2048x1x64.Idx → EReal)
      = broadcastInDim S2048x1x64 ![0, 2] bcast_S2048x64_S2048x1x64_0_2
          (transpose S2048x64 [1, 0] (m ((c : Thread nD τ).loc main_arg0)) transposes_S64x2048_S2048x64_1_0) := by
  show StableHlo.after hostOps0 (W0 m ρ c) (Proc.devRef .tc main_v1) = _
  after_results

/-- The second operand is the transpose of `x` with a unit axis in front. -/
theorem right_eq (c : Dev nD) :
    (V1 m ρ c main_v2 : S1x2048x64.Idx → EReal)
      = broadcastInDim S1x2048x64 ![1, 2] bcast_S2048x64_S1x2048x64_1_2
          (transpose S2048x64 [1, 0] (m ((c : Thread nD τ).loc main_arg0)) transposes_S64x2048_S2048x64_1_0) := by
  show StableHlo.after hostOps0 (W0 m ρ c) (Proc.devRef .tc main_v2) = _
  after_results

/-- The transpose of `x` at `(r, k)` is `x k r`. -/
theorem transpose_at (x : S64x2048.Idx → EReal) (r : Fin 2048) (k : Fin 64) :
    transpose S2048x64 [1, 0] x transposes_S64x2048_S2048x64_1_0 (ix2 r k) = x (ix2 k r) :=
  transpose_apply [1, 0] x transposes_S64x2048_S2048x64_1_0 (ix2 r k) (ix2 k r) (fun b => match b with
    | ⟨0, _⟩ => rfl
    | ⟨1, _⟩ => rfl)

/-- Entry `i` of the first operand is `x` at row `i 2`, column `i 0`. -/
theorem left_apply (c : Dev nD) (i : S2048x1x64.Idx) :
    V1 m ρ c main_v1 i = m ((c : Thread nD τ).loc main_arg0) (ix2 ⟨(i 2).val, (i 2).isLt⟩ ⟨(i 0).val, (i 0).isLt⟩) := by
  rw [left_eq]
  refine (broadcastInDim_apply _ bcast_S2048x64_S2048x1x64_0_2 _ i (ix2 ⟨(i 0).val, (i 0).isLt⟩ ⟨(i 2).val, (i 2).isLt⟩)
    (fun a => match a with
      | ⟨0, _⟩ => by show (i 0).val = if (2048 : Nat) = 1 then 0 else (i 0).val; rw [if_neg (by decide)]
      | ⟨1, _⟩ => by show (i 2).val = if (64 : Nat) = 1 then 0 else (i 2).val; rw [if_neg (by decide)])).trans ?_
  exact transpose_at _ _ _

/-- Entry `i` of the second operand is `x` at row `i 2`, column `i 1`. -/
theorem right_apply (c : Dev nD) (i : S1x2048x64.Idx) :
    V1 m ρ c main_v2 i = m ((c : Thread nD τ).loc main_arg0) (ix2 ⟨(i 2).val, (i 2).isLt⟩ ⟨(i 1).val, (i 1).isLt⟩) := by
  rw [right_eq]
  refine (broadcastInDim_apply _ bcast_S2048x64_S1x2048x64_1_2 _ i (ix2 ⟨(i 1).val, (i 1).isLt⟩ ⟨(i 2).val, (i 2).isLt⟩)
    (fun a => match a with
      | ⟨0, _⟩ => by show (i 1).val = if (2048 : Nat) = 1 then 0 else (i 1).val; rw [if_neg (by decide)]
      | ⟨1, _⟩ => by show (i 2).val = if (64 : Nat) = 1 then 0 else (i 2).val; rw [if_neg (by decide)])).trans ?_
  exact transpose_at _ _ _

/-! ## The index maps over the grid -/

/-- Decided over the 128 grid points: the first operand's block moves with the output's row block and stays at `0` on
    its other axes, the second with the output's column block, and the output's block indices stay in range. -/
theorem idx_facts : ∀ t : Fin cfg0.N,
    win0_0.index t (0 : Fin 3) = win0_2.index t (0 : Fin 2) ∧ win0_0.index t (1 : Fin 3) = 0 ∧ win0_0.index t (2 : Fin 3) = 0
    ∧ win0_1.index t (0 : Fin 3) = 0 ∧ win0_1.index t (1 : Fin 3) = win0_2.index t (1 : Fin 2) ∧ win0_1.index t (2 : Fin 3) = 0
    ∧ win0_2.index t (0 : Fin 2) ≤ 7 ∧ win0_2.index t (1 : Fin 2) ≤ 15 :=
  (by decide +kernel : ∀ t : Fin grid0.N, _)

/-- Every pair of a row block and a column block is some grid point's. -/
theorem idx_onto : ∀ (q0 : Fin 8) (q1 : Fin 16), ∃ t : Fin cfg0.N, win0_2.index t = ![q0.val, q1.val] :=
  (by decide +kernel : ∀ (q0 : Fin 8) (q1 : Fin 16), ∃ t : Fin grid0.N, win0_2.index t = ![q0.val, q1.val])

/-! ## What a point writes back -/

/-- What point `t` writes back is its block of the array of column distances of `x`. -/
theorem flushed_eq (c : Dev nD) (t : Fin cfg0.N) :
    (dat0 (V1 m ρ) c).flushed 2 t
      = ((cfg0.win 2).blk t).view.read (Elt Ideal) (colDistArr (m ((c : Thread nD τ).loc main_arg0))) := by
  show (cfg0.win 2).cut (grid0.coords t) ((dat0 (V1 m ρ) c).after 2 t) = _
  rw [after0_2]
  unfold out0_2
  rw [View.canon_unit_zero hz2]
  simp only [View.ld_unit_zero (S := S256x1x64) hz3, View.ld_unit_zero (S := S1x128x64) hz3]
  obtain ⟨e0, e1, e2, e3, e4, e5, e6, e7⟩ := idx_facts t
  funext j
  obtain ⟨p, q, rfl⟩ : ∃ (p : Fin 256) (q : Fin 128), j = ix2 p q := ⟨j 0, j 1, eq_ix2 j⟩
  show k0_pay1 (iblk0 (V1 m ρ) c 0 t) (iblk0 (V1 m ρ) c 1 t) (ix2 p q)
    = colDistArr (m ((c : Thread nD τ).loc main_arg0)) (((cfg0.win 2).blk t).view.emb (ix2 p q))
  refine (DistBody.payload_apply (iblk0 (V1 m ρ) c 0 t) (iblk0 (V1 m ρ) c 1 t) p q).trans ?_
  unfold colDistArr colDist
  refine Finset.sum_congr rfl fun k _ => ?_
  have hl : iblk0 (V1 m ρ) c 0 t (ix3 p 0 k)
      = m ((c : Thread nD τ).loc main_arg0) (ix2 k ⟨((((cfg0.win 2).blk t).view.emb (ix2 p q)) 0).val, ((((cfg0.win 2).blk t).view.emb (ix2 p q)) 0).isLt⟩) := by
    show V1 m ρ c main_v1 (((cfg0.win 0).blk t).view.emb (ix3 p 0 k)) = _
    refine (left_apply m ρ c _).trans ?_
    refine congrArg (m ((c : Thread nD τ).loc main_arg0)) (funext fun a => Fin.ext ?_)
    match a with
    | ⟨0, _⟩ => show win0_0.index t (2 : Fin 3) * 64 + 1 * k.val = k.val; omega
    | ⟨1, _⟩ => show win0_0.index t (0 : Fin 3) * 256 + 1 * p.val = win0_2.index t (0 : Fin 2) * 256 + 1 * p.val; omega
  have hr : iblk0 (V1 m ρ) c 1 t (ix3 0 q k)
      = m ((c : Thread nD τ).loc main_arg0) (ix2 k ⟨((((cfg0.win 2).blk t).view.emb (ix2 p q)) 1).val, ((((cfg0.win 2).blk t).view.emb (ix2 p q)) 1).isLt⟩) := by
    show V1 m ρ c main_v2 (((cfg0.win 1).blk t).view.emb (ix3 0 q k)) = _
    refine (right_apply m ρ c _).trans ?_
    refine congrArg (m ((c : Thread nD τ).loc main_arg0)) (funext fun a => Fin.ext ?_)
    match a with
    | ⟨0, _⟩ => show win0_1.index t (2 : Fin 3) * 64 + 1 * k.val = k.val; omega
    | ⟨1, _⟩ => show win0_1.index t (1 : Fin 3) * 128 + 1 * q.val = win0_2.index t (1 : Fin 2) * 128 + 1 * q.val; omega
  rw [hl, hr]

/-! ## The blocks tile the output -/

/-- An entry of the output is in point `t`'s block iff each coordinate is in the block's range on its axis. -/
theorem mem_blk (t : Fin cfg0.N) (i : S2048x2048.Idx) :
    i ∈ ((cfg0.win 2).blk t).view.set
      ↔ ∀ a : Fin 2, win0_2.index t a * S256x128.size a ≤ (i a).val ∧ (i a).val < win0_2.index t a * S256x128.size a + S256x128.size a := by
  show i ∈ ((View.whole main_v3).slice (win0_2.rect t)).set ↔ _
  rw [View.set_slice_whole, Rect.mem_set_unit]
  exact Iff.rfl

/-- Every entry of the output is in the block of the point whose row block is `row / 256` and column block `column / 128`. -/
theorem cover (i : S2048x2048.Idx) :
    ∃ t : Fin cfg0.N, (cfg0.win 2).flush t = true ∧ i ∈ ((cfg0.win 2).blk t).view.set := by
  have hi0 : (i 0).val < 2048 := (i 0).isLt
  have hi1 : (i 1).val < 2048 := (i 1).isLt
  obtain ⟨t, ht⟩ := idx_onto ⟨(i 0).val / 256, by omega⟩ ⟨(i 1).val / 128, by omega⟩
  have q0 : win0_2.index t (0 : Fin 2) = (i 0).val / 256 := congrFun ht 0
  have q1 : win0_2.index t (1 : Fin 2) = (i 1).val / 128 := congrFun ht 1
  refine ⟨t, flush0_2 t, ?_⟩
  rw [mem_blk]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 128 ≤ (i 1).val ∧ (i 1).val < win0_2.index t (1 : Fin 2) * 128 + 128; omega

/-- The output array after the distance kernel's run: the column distances of `x`. -/
theorem array_eq (c : Dev nD) :
    (dat0 (V1 m ρ) c).arrAt 2 cfg0.N = colDistArr (m ((c : Thread nD τ).loc main_arg0)) :=
  (dat0 (V1 m ρ) c).arrAt_eq_of_cover 2 _ (fun t _ => flushed_eq m ρ c t) cover

end Cert.KernelIdeal.DistArray

end
-- ==== Proof.NormBody.lean ====
/-
  What the rescaling kernel's body stores, entry by entry.

  The body holds a block `d` of 256 rows of the distances, and the least and the greatest distance `mn`, `mx` as [1, 1]
  arrays. It forms the reciprocal of the spread, `1 / (mx - mn)`, ONCE on the [1, 1] array, broadcasts it and `mn` to the
  block's shape, and stores `1 - (d - mn) * (1 / (mx - mn))`. A broadcast of a [1, 1] array reads its only entry
  everywhere, and the self shape casts are the identity, so that is the stored entry at every `(p, q)`.
-/
import proofs.«155558_j73624329388542_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.NormBody

open Cert.KernelIdeal Cert.KernelIdeal.Facts₀ Cert.KernelIdeal.Facts
open Idealize.ShloMosaic Idealize.ShloMosaic.ValueIdx

/-- A [1, 1] array broadcast to [256, 2048] reads its only entry at every `(p, q)`. -/
theorem bcast_apply (v : FVec Ideal S1x1 .f32) (p : Fin 256) (q : Fin 2048) :
    broadcastTo S256x2048 v broadcasts_S1x1_S256x2048 (ix2 p q) = v (ix2 0 0) :=
  broadcastTo_apply v broadcasts_S1x1_S256x2048 (ix2 p q) (ix2 0 0) (fun a => match a with
    | ⟨0, _⟩ => by show 0 = if (1 : Nat) = 1 then 0 else p.val; rw [if_pos rfl]
    | ⟨1, _⟩ => by show 0 = if (1 : Nat) = 1 then 0 else q.val; rw [if_pos rfl])

/-- What the body stores at entry `(p, q)`: one minus the entry's distance above the least, times the reciprocal of
    the spread. -/
theorem payload_apply (mnv mxv : Vec Ideal S1x1 .f32) (d : Vec Ideal S256x2048 .f32) (p : Fin 256) (q : Fin 2048) :
    Gen.k1_pay1 (F := Ideal) mnv mxv d (ix2 p q)
      = Ideal.ofBits .f32 0x3F800000#32
        - (d (ix2 p q) - mnv (ix2 0 0))
          * Ideal.div (Ideal.ofBits .f32 0x3F800000#32) (mxv (ix2 0 0) - mnv (ix2 0 0)) := by
  unfold Gen.k1_pay1
  show Ideal.ofBits .f32 0x3F800000#32
      - (shapeCast S256x2048 d shapeCasts_S256x2048_S256x2048 (ix2 p q)
          - broadcastTo S256x2048 (shapeCast S1x1 mnv shapeCasts_S1x1_S1x1) broadcasts_S1x1_S256x2048 (ix2 p q))
        * broadcastTo S256x2048
            (divf (broadcast S1x1 (Scalar.ofBits (F := Ideal) .f32 0x3F800000#32))
              (subf (shapeCast S1x1 mxv shapeCasts_S1x1_S1x1) (shapeCast S1x1 mnv shapeCasts_S1x1_S1x1)))
            broadcasts_S1x1_S256x2048 (ix2 p q) = _
  rw [bcast_apply, bcast_apply, shapeCast_self, shapeCast_self, shapeCast_self]
  rfl

end Cert.KernelIdeal.NormBody

end
-- ==== Proof.NormArray.lean ====
/-
  The rescaling kernel's output array after its run, as one function of what it finds at entry.

  At entry it finds the array of distances `D` (the first kernel's output, which the host lines in between do not
  write), and the least and the greatest distance as [1, 1] arrays `mn`, `mx`. The grid has 8 points: point `t` reads
  rows `256 t … 256 t + 255` of `D` (all 2048 columns) and the two [1, 1] arrays whole, and writes the same rows of the
  output; entry `(p, q)` of what it writes is `1 - (D (256 t + p, q) - mn) * (1 / (mx - mn))`. The 8 blocks tile the
  output (row `r` lies in the block of point `r / 256`), so the output ends as `normArr D mn mx` everywhere.
-/
import proofs.«155558_j73624329388542_2_alg».proof.Proof.Gen.KernelIdeal.Frame
import proofs.«155558_j73624329388542_2_alg».proof.Proof.NormBody
import Idealize.ShloMosaic.Lib.Pipeline.Value
import Idealize.ShloMosaic.Lib.ValueIdx

set_option maxRecDepth 16384

noncomputable section

namespace Cert.KernelIdeal.NormArray

open Cert.KernelIdeal Cert.KernelIdeal.Gen
open Idealize.ShloMosaic Idealize.ShloMosaic.TcCoe Idealize.SL.Sem Idealize.ShloMosaic.ValueIdx
open Idealize.ShloMosaic.Pipeline (Dat)

/-- One minus each distance above the least, times the reciprocal of the spread. -/
def normArr (D : S2048x2048.Idx → EReal) (mnv mxv : S1x1.Idx → EReal) : S2048x2048.Idx → EReal :=
  fun i => Ideal.ofBits .f32 0x3F800000#32
    - (D i - mnv (ix2 0 0)) * Ideal.div (Ideal.ofBits .f32 0x3F800000#32) (mxv (ix2 0 0) - mnv (ix2 0 0))

variable (V : (c : Dev nD) → (b : Ref sig .tc) → Buf (Elt Ideal) ((c : Thread nD τ).loc b))

theorem hz2 : (![0, 0] : Fin 2 → Nat) = fun _ => 0 := funext fun a => by fin_cases a <;> rfl

/-- Decided over the 8 grid points: the distances' block moves with the output's row block, the two [1, 1] arrays
    stay put, and the output's block indices stay in range. -/
theorem idx_facts : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) ≤ 7 ∧ win1_3.index t (1 : Fin 2) = 0 :=
  (by decide +kernel : ∀ t : Fin grid1.N, _)

/-- Every row block is some grid point's. -/
theorem idx_onto : ∀ q0 : Fin 8, ∃ t : Fin cfg1.N, win1_3.index t = ![q0.val, 0] :=
  (by decide +kernel : ∀ q0 : Fin 8, ∃ t : Fin grid1.N, win1_3.index t = ![q0.val, 0])

/-- What point `t` writes back is its block of `normArr` of the three arrays found at entry. -/
theorem flushed_eq (c : Dev nD) (t : Fin cfg1.N) :
    (dat1 V c).flushed 3 t
      = ((cfg1.win 3).blk t).view.read (Elt Ideal) (normArr (V c main_v3) (V c main_v5) (V c main_v7)) := by
  show (cfg1.win 3).cut (grid1.coords t) ((dat1 V c).after 3 t) = _
  rw [after1_3]
  unfold out1_3
  rw [View.canon_unit_zero hz2]
  simp only [View.ld_unit_zero (S := S1x1) hz2, View.ld_unit_zero (S := S256x2048) hz2]
  obtain ⟨e0, e1, e2, e3, e4, e5, e6, e7⟩ := idx_facts t
  funext j
  obtain ⟨p, q, rfl⟩ : ∃ (p : Fin 256) (q : Fin 2048), j = ix2 p q := ⟨j 0, j 1, eq_ix2 j⟩
  show k1_pay1 (iblk1 V c 1 t) (iblk1 V c 2 t) (iblk1 V c 0 t) (ix2 p q)
    = normArr (V c main_v3) (V c main_v5) (V c main_v7) (((cfg1.win 3).blk t).view.emb (ix2 p q))
  refine (NormBody.payload_apply (iblk1 V c 1 t) (iblk1 V c 2 t) (iblk1 V c 0 t) p q).trans ?_
  unfold normArr
  have hd : iblk1 V c 0 t (ix2 p q) = V c main_v3 (((cfg1.win 3).blk t).view.emb (ix2 p q)) := by
    show V c main_v3 (((cfg1.win 0).blk t).view.emb (ix2 p q)) = _
    refine congrArg (V c main_v3) (funext fun a => Fin.ext ?_)
    match a with
    | ⟨0, _⟩ => show win1_0.index t (0 : Fin 2) * 256 + 1 * p.val = win1_3.index t (0 : Fin 2) * 256 + 1 * p.val; omega
    | ⟨1, _⟩ => show win1_0.index t (1 : Fin 2) * 2048 + 1 * q.val = win1_3.index t (1 : Fin 2) * 2048 + 1 * q.val; omega
  have hmn : iblk1 V c 1 t (ix2 0 0) = V c main_v5 (ix2 0 0) := by
    show V c main_v5 (((cfg1.win 1).blk t).view.emb (ix2 0 0)) = _
    refine congrArg (V c main_v5) (funext fun a => Fin.ext ?_)
    match a with
    | ⟨0, _⟩ => show win1_1.index t (0 : Fin 2) * 1 + 1 * 0 = 0; omega
    | ⟨1, _⟩ => show win1_1.index t (1 : Fin 2) * 1 + 1 * 0 = 0; omega
  have hmx : iblk1 V c 2 t (ix2 0 0) = V c main_v7 (ix2 0 0) := by
    show V c main_v7 (((cfg1.win 2).blk t).view.emb (ix2 0 0)) = _
    refine congrArg (V c main_v7) (funext fun a => Fin.ext ?_)
    match a with
    | ⟨0, _⟩ => show win1_2.index t (0 : Fin 2) * 1 + 1 * 0 = 0; omega
    | ⟨1, _⟩ => show win1_2.index t (1 : Fin 2) * 1 + 1 * 0 = 0; omega
  rw [hd, hmn, hmx]

/-- An entry of the output is in point `t`'s block iff each coordinate is in the block's range on its axis. -/
theorem mem_blk (t : Fin cfg1.N) (i : S2048x2048.Idx) :
    i ∈ ((cfg1.win 3).blk t).view.set
      ↔ ∀ a : Fin 2, win1_3.index t a * S256x2048.size a ≤ (i a).val ∧ (i a).val < win1_3.index t a * S256x2048.size a + S256x2048.size a := by
  show i ∈ ((View.whole main_v8).slice (win1_3.rect t)).set ↔ _
  rw [View.set_slice_whole, Rect.mem_set_unit]
  exact Iff.rfl

/-- Every entry of the output is in the block of the point `row / 256`. -/
theorem cover (i : S2048x2048.Idx) :
    ∃ t : Fin cfg1.N, (cfg1.win 3).flush t = true ∧ i ∈ ((cfg1.win 3).blk t).view.set := by
  have hi0 : (i 0).val < 2048 := (i 0).isLt
  have hi1 : (i 1).val < 2048 := (i 1).isLt
  obtain ⟨t, ht⟩ := idx_onto ⟨(i 0).val / 256, by omega⟩
  have q0 : win1_3.index t (0 : Fin 2) = (i 0).val / 256 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 256 ≤ (i 0).val ∧ (i 0).val < win1_3.index t (0 : Fin 2) * 256 + 256; omega
  | ⟨1, _⟩ => show win1_3.index t (1 : Fin 2) * 2048 ≤ (i 1).val ∧ (i 1).val < win1_3.index t (1 : Fin 2) * 2048 + 2048; omega

/-- The output array after the rescaling kernel's run, from any contents at entry. -/
theorem array_eq (c : Dev nD) :
    (dat1 V c).arrAt 3 cfg1.N = normArr (V c main_v3) (V c main_v5) (V c main_v7) :=
  (dat1 V c).arrAt_eq_of_cover 3 _ (fun t _ => flushed_eq V c t) cover

end Cert.KernelIdeal.NormArray

end
-- ==== Proof.KernelValue.lean ====
/-
  The kernel program's result buffer, as one function of its argument.

  Between the two kernels the host takes the least and the greatest entry of the first kernel's output and reshapes
  each to a [1, 1] array; it does not write the output itself. So the rescaling kernel finds, at entry, the array of
  column distances of `x` and its least and greatest entry, and the result buffer ends as
  `1 - (d - mn) * (1 / (mx - mn))` at every entry, `d` the column distance there and `mn`, `mx` the host's minimum and
  maximum reduce of the whole array of distances (from `+∞` and `-∞`).
-/
import proofs.«155558_j73624329388542_2_alg».proof.Proof.Gen.KernelIdeal.Frame
import proofs.«155558_j73624329388542_2_alg».proof.Proof.DistArray
import proofs.«155558_j73624329388542_2_alg».proof.Proof.NormArray
import proofs.«155558_j73624329388542_2_alg».proof.Proof.ColumnDistance
import Idealize.ShloMosaic.Lib.Pipeline.Value
import Idealize.ShloMosaic.Lib.StableHlo.Run
import Idealize.ShloMosaic.Lib.ValueIdx

set_option maxRecDepth 16384

noncomputable section

namespace Cert.KernelIdeal.KernelValue

open Cert.KernelIdeal Cert.KernelIdeal.Gen Cert.SelfSim
open Idealize.ShloMosaic Idealize.ShloMosaic.TcCoe Idealize.SL.Sem Idealize.ShloMosaic.ValueIdx

/-- The least entry of an array of distances, as the host computes it: the minimum reduce from `+∞`. -/
def leastOf (D : S2048x2048.Idx → EReal) : EReal :=
  Host.reduce (FloatOps.minimumf (F := Ideal) (φ := .f32)) D (constant (F := Ideal) S_ .f32 0x7F800000#32)
    reducesTo_S2048x2048_S_d0_1 h_S_ ix0

/-- The greatest entry, as the host computes it: the maximum reduce from `-∞`. -/
def greatestOf (D : S2048x2048.Idx → EReal) : EReal :=
  Host.reduce (FloatOps.maximumf (F := Ideal) (φ := .f32)) D (constant (F := Ideal) S_ .f32 0xFF800000#32)
    reducesTo_S2048x2048_S_d0_1 h_S_ ix0

/-- A rank-0 array reshaped to [1, 1], read at its entry, is the array's only value. -/
theorem reshape_entry (y : S_.Idx → EReal) : shapeCast S1x1 y shapeCasts_S_S1x1 (ix2 0 0) = y ix0 :=
  shapeCast_apply y shapeCasts_S_S1x1 (ix2 0 0) ix0 (by
    rw [Shape.rowMajor_val_two]
    exact Shape.rowMajorPi_zero _ _)

variable (m : (ℓ : Loc nD τ sig) → Buf (Elt Ideal) ℓ) (ρ : Dev nD → PrngReg)

/-- After the first kernel, its output buffer holds the column distances of `x`. -/
theorem dist_after (c : Dev nD) :
    (W2 m ρ c (Proc.devRef .tc main_v3) : S2048x2048.Idx → EReal) = colDistArr (m ((c : Thread nD τ).loc main_arg0)) :=
  (W2_arr m ρ c 2).trans (DistArray.array_eq m ρ c)

/-- The rescaling kernel finds the column distances of `x` in its first operand. -/
theorem dist_in (c : Dev nD) :
    (V3 m ρ c main_v3 : S2048x2048.Idx → EReal) = colDistArr (m ((c : Thread nD τ).loc main_arg0)) := by
  show StableHlo.after hostOps1 (W2 m ρ c) (Proc.devRef .tc main_v3) = _
  after_results
  exact dist_after m ρ c

/-- Its second operand's entry is the least column distance. -/
theorem least_in (c : Dev nD) :
    V3 m ρ c main_v5 (ix2 0 0) = leastOf (colDistArr (m ((c : Thread nD τ).loc main_arg0))) := by
  have e : (V3 m ρ c main_v5 : S1x1.Idx → EReal)
      = shapeCast S1x1 (Host.reduce (FloatOps.minimumf (F := Ideal) (φ := .f32)) (W2 m ρ c (Proc.devRef .tc main_v3))
          (constant (F := Ideal) S_ .f32 0x7F800000#32) reducesTo_S2048x2048_S_d0_1 h_S_) shapeCasts_S_S1x1 := by
    show StableHlo.after hostOps1 (W2 m ρ c) (Proc.devRef .tc main_v5) = _
    after_results
    all_goals rfl
  rw [e, dist_after m ρ c, reshape_entry]
  rfl

/-- Its third operand's entry is the greatest column distance. -/
theorem greatest_in (c : Dev nD) :
    V3 m ρ c main_v7 (ix2 0 0) = greatestOf (colDistArr (m ((c : Thread nD τ).loc main_arg0))) := by
  have e : (V3 m ρ c main_v7 : S1x1.Idx → EReal)
      = shapeCast S1x1 (Host.reduce (FloatOps.maximumf (F := Ideal) (φ := .f32)) (W2 m ρ c (Proc.devRef .tc main_v3))
          (constant (F := Ideal) S_ .f32 0xFF800000#32) reducesTo_S2048x2048_S_d0_1 h_S_) shapeCasts_S_S1x1 := by
    show StableHlo.after hostOps1 (W2 m ρ c) (Proc.devRef .tc main_v7) = _
    after_results
    all_goals rfl
  rw [e, dist_after m ρ c, reshape_entry]
  rfl

/-- The result buffer after the run, entry by entry. -/
theorem result_apply (c : Dev nD) (i : S2048x2048.Idx) :
    W4 m ρ c (Proc.devRef .tc main_v8) i
      = Ideal.ofBits .f32 0x3F800000#32
        - (colDistArr (m ((c : Thread nD τ).loc main_arg0)) i - leastOf (colDistArr (m ((c : Thread nD τ).loc main_arg0))))
          * Ideal.div (Ideal.ofBits .f32 0x3F800000#32)
              (greatestOf (colDistArr (m ((c : Thread nD τ).loc main_arg0))) - leastOf (colDistArr (m ((c : Thread nD τ).loc main_arg0)))) := by
  have hW : (W4 m ρ c (Proc.devRef .tc main_v8) : S2048x2048.Idx → EReal)
      = NormArray.normArr (V3 m ρ c main_v3) (V3 m ρ c main_v5) (V3 m ρ c main_v7) :=
    (W4_arr m ρ c 3).trans (NormArray.array_eq (V3 m ρ) c)
  rw [hW]
  unfold NormArray.normArr
  rw [dist_in m ρ c, least_in m ρ c, greatest_in m ρ c]

end Cert.KernelIdeal.KernelValue

end
-- ==== Proof.RefValue.lean ====
/-
  What the reference computes, entry by entry, on the extended reals.

  Its array of distances (the sum over the leading axis of `|x[k, p, ·] - x[k, ·, q]|` of the two broadcasts of `x`)
  is, at entry `(p, q)`, the zero word plus the sum over the rows `k` of `|x k p - x k q|`: the zero word denotes `0`,
  so it is `colDist x p q`. Its result at an entry is `1 - (d - mn) / (mx - mn)`, with `d` that entry's distance and
  `mn`, `mx` the least and greatest distance, each one number (a rank-0 array, read at its only index).
-/
import proofs.«155558_j73624329388542_2_alg».proof.Proof.Gen.ReferenceIdeal.Read
import proofs.«155558_j73624329388542_2_alg».proof.Proof.ColumnDistance
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Cert.SelfSim
open Idealize.ShloMosaic Idealize.ShloMosaic.ValueIdx

/-- The row `k`, column `p` entry that the first broadcast chain reads at `(k, p, q)`. -/
theorem idx_left (i : S2048x2048.Idx) (k : Fin 64) :
    idx_main_v0 (idx_main_v2 (idx_main_v6 i k)) = ix2 k ⟨(i 0).val, (i 0).isLt⟩ :=
  funext fun a => Fin.ext (by match a with | ⟨0, _⟩ => rfl | ⟨1, _⟩ => rfl)

/-- The row `k`, column `q` entry that the second broadcast chain reads at `(k, p, q)`. -/
theorem idx_right (i : S2048x2048.Idx) (k : Fin 64) :
    idx_main_v1 (idx_main_v3 (idx_main_v6 i k)) = ix2 k ⟨(i 1).val, (i 1).isLt⟩ :=
  funext fun a => Fin.ext (by match a with | ⟨0, _⟩ => rfl | ⟨1, _⟩ => rfl)

/-- The reference's array of distances is `colDistArr` of its argument. -/
theorem dist_eq (x : (⟨S64x2048, .f32⟩ : BufTy).Contents (Elt Ideal)) :
    val_main_v6 (F := Ideal) x = colDistArr x := by
  funext i
  rw [val_main_v6_apply, val_main_cst_apply, Ideal.ofBits_def, Ideal.ofBits_zero_f32, zero_add]
  unfold colDistArr colDist
  refine Finset.sum_congr rfl fun k _ => ?_
  rw [val_main_v5_apply, val_main_v4_apply, val_main_v2_apply, val_main_v0_apply, val_main_v3_apply, val_main_v1_apply,
    idx_left, idx_right]
  rfl

/-- The reference's result at an entry: one minus the quotient of the entry's distance above the least by the spread. -/
theorem result_apply (x : (⟨S64x2048, .f32⟩ : BufTy).Contents (Elt Ideal)) (i : S2048x2048.Idx) :
    val_main_v15 (F := Ideal) x i
      = Ideal.ofBits .f32 0x3F800000#32
        - Ideal.div (val_main_v6 (F := Ideal) x i - val_main_v7 (F := Ideal) x ix0)
            (val_main_v8 (F := Ideal) x ix0 - val_main_v7 (F := Ideal) x ix0) := by
  rw [val_main_v15_apply, val_main_v14_apply, val_main_cst_2_apply, val_main_v13_apply, val_main_v10_apply,
    val_main_v9_apply, val_main_v12_apply, val_main_v11_apply]
  rfl

end Cert.ReferenceIdeal.RefValue

end
-- ==== Proof.SpreadNonzero.lean ====
/-
  From the precondition to a nonzero spread.

  The precondition is a conjunction of two one-bit facts: every entry of `x` is finite, and the greatest of the column
  distances exceeds the least. The distances there are spelt by the reference's own expression, so the second fact
  is about the very two numbers the reference subtracts to form its denominator: the least distance is strictly
  below the greatest, hence their difference is not zero (`Cert.SelfSim.sub_ne_zero_of_lt`). Finiteness is not used.
-/
import proofs.«155558_j73624329388542_2_alg».proof.Proof.Gen.ReferenceIdeal.Read
import proofs.«155558_j73624329388542_2_alg».proof.Proof.Gen.Pre_finite_inputs
import proofs.«155558_j73624329388542_2_alg».proof.Proof.ColumnDistance
import Idealize.ShloMosaic.Lib.Affine
import Idealize.ShloMosaic.Lib.ValueIdx

noncomputable section

namespace Cert.SelfSim

open Idealize.ShloMosaic Idealize.ShloMosaic.ValueIdx

/-- The comparison bit "greater than" is set only when the right operand is strictly below the left. -/
theorem lt_of_cmp_ogt {a b : EReal} (h : Ideal.cmp .ogt a b = 1#1) : b < a := by
  by_contra hn
  have h0 : Ideal.cmp .ogt a b = 0#1 := by simp [Ideal.cmp, hn]
  rw [h0] at h
  exact absurd h (by decide)

/-- The same, with the comparison spelt as the float operation at the extended reals. -/
theorem lt_of_cmpf_ogt {a b : Ideal .f32} (h : FloatOps.cmpf (F := Ideal) .ogt a b = 1#1) : b < a :=
  lt_of_cmp_ogt h

/-- A conjunction of two arrays of bits, at an index, is the conjunction of the two bits there. -/
theorem andi_at {s : Shape} {w : Nat} (a b : IVec s w) (i : s.Idx) : andi a b i = IntOp.andi (a i) (b i) := rfl

section
open Cert.Pre_finite_inputs Cert.Pre_finite_inputs.Facts

/-- The precondition's first bit: every entry of `x` is below `+∞` in absolute value. -/
def allFinite (x : FVec Ideal S64x2048 .f32) : IVec S_ 1 :=
  Host.reduce IntOp.andi (cmpf .olt (Host.absf x) (broadcastInDim S64x2048 ![] bcast_S_S64x2048 (constant S_ .f32 0x7F800000#32)))
    (constantI S_ 1 1#1) reducesTo_S64x2048_S_d0_1 h_S_

/-- The precondition is the conjunction of that bit with "the reference's greatest distance exceeds its least":
    its distances are spelt by the reference's own expression, so they are the reference's stages. -/
theorem fn_eq (x : FVec Ideal S64x2048 .f32) :
    fn (F := Ideal) x
      = andi (allFinite x)
          (cmpf (F := Ideal) (s := S_) (φ := .f32) .ogt (Cert.ReferenceIdeal.Read.val_main_v8 (F := Ideal) x)
            (Cert.ReferenceIdeal.Read.val_main_v7 (F := Ideal) x)) := rfl

end

/-- Under the precondition the reference's least distance is strictly below its greatest. -/
theorem least_lt_greatest (x : (⟨2, ![64, 2048]⟩ : Shape).Idx → EReal)
    (h : Cert.Pre_finite_inputs.fn (F := Ideal) x = fun _ => 1#1) :
    Cert.ReferenceIdeal.Read.val_main_v7 (F := Ideal) x ix0 < Cert.ReferenceIdeal.Read.val_main_v8 (F := Ideal) x ix0 := by
  have h0 := congrFun h ix0
  rw [fn_eq, andi_at, cmpf_apply] at h0
  exact lt_of_cmpf_ogt (IntOp.andi_eq_one.1 h0).2

/-- So the reference's denominator, the greatest distance minus the least, is not zero. -/
theorem spread_ne_zero (x : (⟨2, ![64, 2048]⟩ : Shape).Idx → EReal)
    (h : Cert.Pre_finite_inputs.fn (F := Ideal) x = fun _ => 1#1) :
    Cert.ReferenceIdeal.Read.val_main_v8 (F := Ideal) x ix0 - Cert.ReferenceIdeal.Read.val_main_v7 (F := Ideal) x ix0 ≠ 0 :=
  sub_ne_zero_of_lt (least_lt_greatest x h)

end Cert.SelfSim

end
-- ==== Proof.Bridge.lean ====
/-
  The two programs compute one function.

  Both form the array of column distances of `x`, take its least and greatest entry by the same host reductions, and
  return one minus the rescaled distance. The kernel multiplies the distance above the least by the reciprocal of the
  spread; the reference divides by the spread. Under the precondition the spread is not zero, and then the product
  with the reciprocal IS the quotient on the extended reals (`Cert.SelfSim.mul_one_div`), whatever the numerator.
-/
import proofs.«155558_j73624329388542_2_alg».proof.Proof.RefValue
import proofs.«155558_j73624329388542_2_alg».proof.Proof.KernelValue
import proofs.«155558_j73624329388542_2_alg».proof.Proof.SpreadNonzero
import proofs.«155558_j73624329388542_2_alg».proof.Proof.ColumnDistance

noncomputable section

namespace Cert.SelfSim

open Idealize.ShloMosaic Idealize.ShloMosaic.ValueIdx
open Cert.KernelIdeal.KernelValue (leastOf greatestOf)

/-- The reference's least distance is the host's minimum reduce of the column distances. -/
theorem ref_least (x : (⟨2, ![64, 2048]⟩ : Shape).Idx → EReal) :
    Cert.ReferenceIdeal.Read.val_main_v7 (F := Ideal) x ix0 = leastOf (colDistArr x) := by
  rw [← Cert.ReferenceIdeal.RefValue.dist_eq]
  rfl

/-- The reference's greatest distance is the host's maximum reduce of the column distances. -/
theorem ref_greatest (x : (⟨2, ![64, 2048]⟩ : Shape).Idx → EReal) :
    Cert.ReferenceIdeal.Read.val_main_v8 (F := Ideal) x ix0 = greatestOf (colDistArr x) := by
  rw [← Cert.ReferenceIdeal.RefValue.dist_eq]
  rfl

/-- Under the precondition the kernel's entry is the reference's entry, at every index. -/
theorem kernel_eq_reference (x : (⟨2, ![64, 2048]⟩ : Shape).Idx → EReal)
    (h : Cert.Pre_finite_inputs.fn (F := Ideal) x = fun _ => 1#1) (i : (⟨2, ![2048, 2048]⟩ : Shape).Idx) :
    Ideal.ofBits .f32 0x3F800000#32
        - (colDistArr x i - leastOf (colDistArr x))
          * Ideal.div (Ideal.ofBits .f32 0x3F800000#32) (greatestOf (colDistArr x) - leastOf (colDistArr x))
      = Cert.ReferenceIdeal.Read.val_main_v15 (F := Ideal) x i := by
  have hne : greatestOf (colDistArr x) - leastOf (colDistArr x) ≠ 0 := by
    have := spread_ne_zero x h
    rwa [ref_least, ref_greatest] at this
  rw [Cert.ReferenceIdeal.RefValue.result_apply, ref_least, ref_greatest,
    congrFun (Cert.ReferenceIdeal.RefValue.dist_eq x) i, ofBits_one, mul_one_div _ _ hne]

end Cert.SelfSim

end
-- ==== Proof.lean ====
/-
  A self-similarity matrix, computed two ways, is one function of its input on the extended reals.

  The input `x` has 64 rows and 2048 columns. Both programs form the 2048 by 2048 array of L1 distances between the
  columns of `x` (entry `(p, q)`: the sum over the rows `k` of `|x k p - x k q|`), take its least entry `mn` and its
  greatest `mx`, and return `1 - (d - mn) / (mx - mn)` entry by entry. The kernel program does it in two tiled passes —
  the distances over an 8 by 16 grid of 256 by 128 blocks, then the rescaling over 8 blocks of 256 rows, with the
  host's minimum and maximum in between — and forms the quotient as a product with the reciprocal `1 / (mx - mn)`; the
  reference does it with whole-array operations and divides.

  * The tiling does not matter: each block a grid point writes is that block of ONE whole-array function, and the
    blocks tile the output (Proof/DistArray.lean, Proof/NormArray.lean).
  * The order of the 64 summands does not matter: the kernel's lane sum and the host's sum are the same sum
    (Proof/DistBody.lean, Proof/RefValue.lean).
  * The product with the reciprocal is the quotient exactly when the spread `mx - mn` is not zero
    (Proof/ColumnDistance.lean). The precondition asks that the greatest distance exceed the least — outside that
    the reference's own quotient is `0 / 0` at every entry — and that is all of it that is used
    (Proof/SpreadNonzero.lean, Proof/Bridge.lean); the finiteness of `x` is not needed.

  The three frame claims are the generated frames (the reference's is its generated run with the result dropped);
  the idealization rewrote nothing, so that claim is trivial.
-/
import proofs.«155558_j73624329388542_2_alg».proof.Defs
import proofs.«155558_j73624329388542_2_alg».proof.Proof.Gen.Kernel
import proofs.«155558_j73624329388542_2_alg».proof.Proof.Gen.Kernel.Frame
import proofs.«155558_j73624329388542_2_alg».proof.Proof.Gen.KernelIdeal
import proofs.«155558_j73624329388542_2_alg».proof.Proof.Gen.KernelIdeal.Frame
import proofs.«155558_j73624329388542_2_alg».proof.Proof.Gen.ReferenceIdeal
import proofs.«155558_j73624329388542_2_alg».proof.Proof.Gen.ReferenceIdeal.Run
import proofs.«155558_j73624329388542_2_alg».proof.Proof.Gen.ReferenceIdeal.Read
import proofs.«155558_j73624329388542_2_alg».proof.Proof.Gen.Pre_finite_inputs
import proofs.«155558_j73624329388542_2_alg».proof.Proof.KernelRun
import proofs.«155558_j73624329388542_2_alg».proof.Proof.KernelValue
import proofs.«155558_j73624329388542_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the reference's function of the argument: the kernel's by its run, the value of
    its result buffer and the bridge; the reference's by its generated run. -/
theorem algebraic : Cert.algebraic_KernelIdeal_ReferenceIdeal := by
  intro m ρ m' ρ' hpre hagree
  refine ⟨fun c => Cert.ReferenceIdeal.Read.val_main_v15 (F := Ideal)
      (m ((c.tc : Thread Cert.KernelIdeal.nD Cert.KernelIdeal.τ).loc Cert.KernelIdeal.main_arg0)), ?_, ?_⟩
  · refine (θ_run Cert.KernelIdeal.defs _ _).mono (fun r h c => ⟨(h c).1.trans ?_, (h c).2⟩)
      (Cert.KernelIdeal.KernelRun.run_result (F := Ideal) m ρ)
    funext i
    rw [Cert.KernelIdeal.KernelValue.result_apply]
    exact Cert.SelfSim.kernel_eq_reference _ (hpre c) i
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v15_eq, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
